-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x3 : Shape := ⟨3, ![16384, 32, 3]⟩
abbrev S_ : Shape := ⟨0, ![]⟩

class Facts : Prop where
  bcast_S_S16384x32x3 : S_.BroadcastsInDim S16384x32x3 (![] : Fin 0 → Fin S16384x32x3.rank)
  reducesTo_S16384x32x3_S_d0_1_2 : S16384x32x3.ReducesTo [0, 1, 2] S_
  h_S_ : 0 < S_.numel

variable [Facts]

def fn {F : FTy → Type} [FloatOps F] (main_arg0 : FVec F S16384x32x3 .f32) : IVec S_ 1 :=
  let main_v0 : FVec F S16384x32x3 .f32 := Host.absf main_arg0
  let main_cst : FVec F S_ .f32 := constant S_ .f32 0x7F800000#32
  let main_v1 : FVec F S16384x32x3 .f32 := broadcastInDim S16384x32x3 ![] bcast_S_S16384x32x3 main_cst
  let main_v2 : IVec S16384x32x3 1 := cmpf .olt main_v0 main_v1
  let main_c : IVec S_ 1 := constantI S_ 1 1#1
  let main_v3 : IVec S_ 1 := (fun x v => Host.reduce IntOp.andi x v reducesTo_S16384x32x3_S_d0_1_2 h_S_) main_v2 main_c
  main_v3
-- ==== Kernel.lean ====
abbrev S16384x32x3 : Shape := ⟨3, ![16384, 32, 3]⟩
abbrev S3x32x16384 : Shape := ⟨3, ![3, 32, 16384]⟩
abbrev S16384 : Shape := ⟨1, ![16384]⟩
abbrev S3x32x1024 : Shape := ⟨3, ![3, 32, 1024]⟩
abbrev S1024 : Shape := ⟨1, ![1024]⟩
abbrev S1x32x1024 : Shape := ⟨3, ![1, 32, 1024]⟩
abbrev S32x1024 : Shape := ⟨2, ![32, 1024]⟩
abbrev S32x1x1024 : Shape := ⟨3, ![32, 1, 1024]⟩
abbrev S32x32x1024 : Shape := ⟨3, ![32, 32, 1024]⟩
abbrev S32x32x1 : Shape := ⟨3, ![32, 32, 1]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S16384x32x3, .f32⟩
  | .hbm, ⟨1, _⟩ => ⟨S3x32x16384, .f32⟩
  | .hbm, ⟨2, _⟩ => ⟨S16384, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S3x32x1024, .f32⟩
  | .local _ .vmem, ⟨1, _⟩ => ⟨S3x32x1024, .f32⟩
  | .local _ .vmem, ⟨2, _⟩ => ⟨S1024, .f32⟩
  | .local _ .vmem, ⟨3, _⟩ => ⟨S1024, .f32⟩
  | _, _ => ⟨S16384x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S3x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S16384x32x3_S3x32x16384_2_1_0 : S16384x32x3.Transposes [2, 1, 0] S3x32x16384
  inb_S3x32x1024_S1x32x1024_0_0_0 : ∀ a, (![0, 0, 0] : Fin 3 → Nat) a + S1x32x1024.size a ≤ S3x32x1024.size a
  h_S1x32x1024 : 0 < S1x32x1024.numel
  shapeCasts_S1x32x1024_S32x1024 : S1x32x1024.ShapeCasts S32x1024
  inb_S3x32x1024_S1x32x1024_1_0_0 : ∀ a, (![1, 0, 0] : Fin 3 → Nat) a + S1x32x1024.size a ≤ S3x32x1024.size a
  inb_S3x32x1024_S1x32x1024_2_0_0 : ∀ a, (![2, 0, 0] : Fin 3 → Nat) a + S1x32x1024.size a ≤ S3x32x1024.size a
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  iota_S32x32x1_d0_w32 : S32x32x1.Iotas .tc 32 [0]
  iota_S32x32x1_d1_w32 : S32x32x1.Iotas .tc 32 [1]
  natLt_1_32 : 1 < 32
  broadcasts_S32x32x1_S32x32x1024 : S32x32x1.Broadcasts S32x32x1024
  reduces_S32x32x1024_S32x1024 : S32x32x1024.Reduces [0] S32x1024
  reduces_S32x1024_S1024 : S32x1024.Reduces [0] S1024
  inb_S1024_S1024_0 : ∀ a, (![0] : Fin 1 → Nat) a + S1024.size a ≤ S1024.size a
  h_S1024 : 0 < S1024.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32x1024.size a ≤ S3x32x16384.size a
  hwx0_0 : ∀ i : grid0.Coords, EltTy.bits .f32 = 32 ∨ (Rect.block (s := S3x32x16384) S3x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .f32 = 32 ∨ (Rect.block (s := S16384) S1024.size (cc0_transform_1 i) (hinb0_1 i)).WholeWords (EltTy.packing .f32)

variable [Facts₀]

abbrev win0_0 : Pipeline.Window sig grid0 :=
  Pipeline.Window.ofSpec (Memref.whole main_v0) S3x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x3 : Shape := ⟨3, ![16384, 32, 3]⟩
abbrev S16384x32x1x3 : Shape := ⟨4, ![16384, 32, 1, 3]⟩
abbrev S16384x1x32x3 : Shape := ⟨4, ![16384, 1, 32, 3]⟩
abbrev S16384x32x32x3 : Shape := ⟨4, ![16384, 32, 32, 3]⟩
abbrev S_ : Shape := ⟨0, ![]⟩
abbrev S16384x32x32 : Shape := ⟨3, ![16384, 32, 32]⟩
abbrev S32x32 : Shape := ⟨2, ![32, 32]⟩
abbrev S1x32x32 : Shape := ⟨3, ![1, 32, 32]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x32x3, .f32⟩
  | .hbm, ⟨1, _⟩ => ⟨S16384x32x1x3, .f32⟩
  | .hbm, ⟨2, _⟩ => ⟨S16384x1x32x3, .f32⟩
  | .hbm, ⟨3, _⟩ => ⟨S16384x32x32x3, .f32⟩
  | .hbm, ⟨4, _⟩ => ⟨S16384x32x32x3, .f32⟩
  | .hbm, ⟨5, _⟩ => ⟨S16384x32x32x3, .f32⟩
  | .hbm, ⟨6, _⟩ => ⟨S16384x32x32x3, .f32⟩
  | .hbm, ⟨7, _⟩ => ⟨S_, .f32⟩
  | .hbm, ⟨8, _⟩ => ⟨S16384x32x32, .f32⟩
  | .hbm, ⟨9, _⟩ => ⟨S_, .f32⟩
  | .hbm, ⟨10, _⟩ => ⟨S16384x32x32, .f32⟩
  | .hbm, ⟨11, _⟩ => ⟨S16384x32x32, .f32⟩
  | .hbm, ⟨12, _⟩ => ⟨S_, .f32⟩
  | .hbm, ⟨13, _⟩ => ⟨S16384x32x32, .f32⟩
  | .hbm, ⟨14, _⟩ => ⟨S16384x32x32, .f32⟩
  | .hbm, ⟨15, _⟩ => ⟨S_, .f32⟩
  | .hbm, ⟨16, _⟩ => ⟨S16384x32x32, .f32⟩
  | .hbm, ⟨17, _⟩ => ⟨S16384x32x32, .f32⟩
  | .hbm, ⟨18, _⟩ => ⟨S_, .f32⟩
  | .hbm, ⟨19, _⟩ => ⟨S16384x32x32, .f32⟩
  | .hbm, ⟨20, _⟩ => ⟨S16384x32x32, .f32⟩
  | .hbm, ⟨21, _⟩ => ⟨S16384x32x32, .f32⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S32x32, .i1⟩
  | .hbm, ⟨28, _⟩ => ⟨S32x32, .f32⟩
  | .hbm, ⟨29, _⟩ => ⟨S_, .f32⟩
  | .hbm, ⟨30, _⟩ => ⟨S32x32, .f32⟩
  | .hbm, ⟨31, _⟩ => ⟨S32x32, .f32⟩
  | .hbm, ⟨32, _⟩ => ⟨S1x32x32, .f32⟩
  | .hbm, ⟨33, _⟩ => ⟨S16384x32x32, .f32⟩
  | .hbm, ⟨34, _⟩ => ⟨S16384x32x32, .f32⟩
  | .hbm, ⟨35, _⟩ => ⟨S_, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16384x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S16384x32x3_S16384x32x1x3_0_1_3 : S16384x32x3.BroadcastsInDim S16384x32x1x3 (![0, 1, 3] : Fin 3 → Fin S16384x32x1x3.rank)
  bcast_S16384x32x3_S16384x1x32x3_0_2_3 : S16384x32x3.BroadcastsInDim S16384x1x32x3 (![0, 2, 3] : Fin 3 → Fin S16384x1x32x3.rank)
  bcast_S16384x32x1x3_S16384x32x32x3_0_1_2_3 : S16384x32x1x3.BroadcastsInDim S16384x32x32x3 (![0, 1, 2, 3] : Fin 4 → Fin S16384x32x32x3.rank)
  bcast_S16384x1x32x3_S16384x32x32x3_0_1_2_3 : S16384x1x32x3.BroadcastsInDim S16384x32x32x3 (![0, 1, 2, 3] : Fin 4 → Fin S16384x32x32x3.rank)
  reducesTo_S16384x32x32x3_S16384x32x32_d3 : S16384x32x32x3.ReducesTo [3] S16384x32x32
  h_S_ : 0 < S_.numel
  bcast_S_S16384x32x32 : S_.BroadcastsInDim S16384x32x32 (![] : Fin 0 → Fin S16384x32x32.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S16384x32x32_0_1_2 : S1x32x32.BroadcastsInDim S16384x32x32 (![0, 1, 2] : Fin 3 → Fin S16384x32x32.rank)
  reducesTo_S16384x32x32_S16384_d1_2 : S16384x32x32.ReducesTo [1, 2] S16384
  reducesTo_S16384_S_d0 : S16384.ReducesTo [0] S_

variable [Facts₀]

class Facts : Prop extends Facts₀ where

variable [Facts]
-- ==== Proof.SeparationSpec.lean ====
/-
  The separation loss as ONE function of the argument array, on the extended reals.

  For a batch item with joints `p_0 … p_31` in three coordinates, the squared distance of joints `i`, `j` is
  `d(i,j) = (x_i - x_j)² + (y_i - y_j)² + (z_i - z_j)²`, the penalty of the pair is the two-sided hinge
  `max(0, 1/4 - d) + max(0, d - 4)`, counted off the diagonal only, and the item's loss is the sum of the
  penalties over all ordered pairs. The result is `(mean over the batch of the items' losses) ^ 0.4`.
  Nothing here needs the inputs finite: only the order and grouping of sums differ between the two programs.
-/
import Idealize.ShloMosaic.PureOps.Ideal
import Idealize.ShloMosaic.PureOps.Ideal.Laws
import Idealize.ShloMosaic.Lib.ValueIdx

noncomputable section

namespace Cert.Separation

open Idealize.ShloMosaic Idealize.ShloMosaic.ValueIdx

/-- The two-sided hinge of a squared distance: below 1/4 and above 4 (the words of 0, 1/4 and 4 are kept as words:
    both programs spell the same ones). -/
def hinge (d : EReal) : EReal :=
  max (Ideal.ofBits .f32 0x00000000#32) (Ideal.ofBits .f32 0x3E800000#32 - d)
    + max (Ideal.ofBits .f32 0x00000000#32) (d - Ideal.ofBits .f32 0x40800000#32)

/-- One off the diagonal, zero on it. -/
def offDiag (i j : Fin 32) : EReal := if i = j then 0 else 1

/-- The squared distance of joints `i` and `j` from the three coordinate rows. -/
def sqDist (x y z : Fin 32 → EReal) (i j : Fin 32) : EReal :=
  (x i - x j) * (x i - x j) + (y i - y j) * (y i - y j) + (z i - z j) * (z i - z j)

/-- The penalty of the ordered pair `(i, j)`. -/
def pairPenalty (x y z : Fin 32 → EReal) (i j : Fin 32) : EReal :=
  hinge (sqDist x y z i j) * offDiag i j

/-- One item's loss: the penalties summed over all ordered pairs (second joint outermost). -/
def itemLoss (x y z : Fin 32 → EReal) : EReal := ∑ j : Fin 32, ∑ i : Fin 32, pairPenalty x y z i j

/-- The per-item losses of a whole `[16384, 32, 3]` array, as a `[16384]` array. -/
def perItem (a : (⟨3, ![16384, 32, 3]⟩ : Shape).Idx → EReal) : (⟨1, ![16384]⟩ : Shape).Idx → EReal :=
  fun b => itemLoss (fun i => a (ix3 (b 0) i 0)) (fun i => a (ix3 (b 0) i 1)) (fun i => a (ix3 (b 0) i 2))

/-- The end of both programs: the sum of a `[16384]` array from zero, divided by 16384, to the power 0.4. -/
def meanPow (v : FVec Ideal ⟨1, ![16384]⟩ .f32) : FVec Ideal ⟨0, ![]⟩ .f32 :=
  Host.powf (F := Ideal)
    (Host.divf (F := Ideal)
      (Host.reduceAdd (F := Ideal) v (constant (F := Ideal) ⟨0, ![]⟩ .f32 0x00000000#32)
        (by decide : (⟨1, ![16384]⟩ : Shape).ReducesTo [0] ⟨0, ![]⟩) (by decide))
      (constant (F := Ideal) ⟨0, ![]⟩ .f32 0x46800000#32))
    (constant (F := Ideal) ⟨0, ![]⟩ .f32 0x3ECCCCCD#32)

/-- The whole result. -/
def loss (a : (⟨3, ![16384, 32, 3]⟩ : Shape).Idx → EReal) : FVec Ideal ⟨0, ![]⟩ .f32 := meanPow (perItem a)

/-! ## The mask, in the two spellings -/

/-- Two joint numbers below 32 are the same 32-bit word iff they are the same number. -/
theorem ofNat_eq_iff (i j : Fin 32) : BitVec.ofNat 32 i.val = BitVec.ofNat 32 j.val ↔ i = j := by
  constructor
  · intro h
    have h' := congrArg BitVec.toNat h
    simp only [BitVec.toNat_ofNat] at h'
    have hi := i.isLt; have hj := j.isLt
    exact Fin.ext (by omega)
  · rintro rfl; rfl

/-- "The row number differs from the column number", widened to 32 bits and read as a signed integer. -/
theorem mask_ne (i j : Fin 32) :
    (((BitVec.setWidth 32 (IntOp.cmpi .ne (BitVec.ofNat 32 i.val) (BitVec.ofNat 32 j.val))).toInt : ℝ) : EReal) = offDiag i j := by
  unfold offDiag IntOp.cmpi
  by_cases h : i = j
  · subst h; simp
  · have hne : BitVec.ofNat 32 i.val ≠ BitVec.ofNat 32 j.val := fun e => h ((ofNat_eq_iff i j).mp e)
    have hb : (BitVec.ofNat 32 i.val != BitVec.ofNat 32 j.val) = true := bne_iff_ne.mpr hne
    rw [if_neg h, hb]
    have e : (BitVec.setWidth 32 (BitVec.ofBool true)).toInt = 1 := by decide
    rw [e]; simp

/-- One minus "the row number (plus zero) equals the column number", read as an unsigned integer. -/
theorem mask_one_sub_eq (i j : Fin 32) :
    Ideal.ofBits .f32 0x3F800000#32
        - (((IntOp.cmpi .eq (IntOp.addi (BitVec.ofNat 32 i.val) 0#32) (BitVec.ofNat 32 j.val)).toNat : ℝ) : EReal)
      = offDiag i j := by
  have h1 : Ideal.ofBits .f32 0x3F800000#32 = 1 := IdealRules.sign_bit.ideal_onePat .f32
  rw [h1]
  unfold offDiag IntOp.cmpi IntOp.addi
  by_cases h : i = j
  · subst h
    have hb : (BitVec.ofNat 32 i.val + 0#32 == BitVec.ofNat 32 i.val) = true := by simp
    rw [if_pos rfl, hb]
    have e : (BitVec.ofBool true).toNat = 1 := by decide
    rw [e, Nat.cast_one, ← EReal.coe_one, ← EReal.coe_sub, sub_self, EReal.coe_zero]
  · have hne : BitVec.ofNat 32 i.val ≠ BitVec.ofNat 32 j.val := fun e => h ((ofNat_eq_iff i j).mp e)
    have hb : (BitVec.ofNat 32 i.val + 0#32 == BitVec.ofNat 32 j.val) = false := by
      rw [BitVec.add_zero]; exact beq_eq_false_iff_ne.mpr hne
    rw [if_neg h, hb]
    have e : (BitVec.ofBool false).toNat = 0 := by decide
    rw [e, Nat.cast_zero, EReal.coe_zero, sub_zero]

end Cert.Separation

end
-- ==== Proof.KernelPayload.lean ====
/-
  The kernel body's arithmetic read at one lane.

  The body loads the three coordinate planes of its block (each `[1, 32, 1024]`: joints down, batch items across the lanes),
  spreads each plane once along a new leading joint axis and once along the second, subtracts, squares and adds to the
  `[32, 32, 1024]` array of squared distances, applies the two-sided hinge and the off-diagonal mask, and sums first over the
  leading joint axis and then over the remaining one. At lane `l` that is the item loss of the lane's 32 joints.
-/
import proofs.«104757_j80307298501466_2_alg».proof.Proof.Gen.KernelIdeal.Skeleton
import proofs.«104757_j80307298501466_2_alg».proof.Proof.SeparationSpec
import Idealize.ShloMosaic.Lib.Pipeline.Value
import Idealize.ShloMosaic.Lib.ValueIdx
import Idealize.ShloMosaic.PureOps.Ideal.Laws

noncomputable section

namespace Cert.Separation.Kernel

open Idealize.ShloMosaic Idealize.ShloMosaic.ValueIdx Cert.KernelIdeal Cert.KernelIdeal.Gen Cert.Separation

/-! ## The layout operations at an index -/

/-- A plane spread along a new SECOND axis: entry `(i, j, l)` is the plane's `(i, l)`. -/
theorem spread_second {α : Type} (v : S1x32x1024.Idx → α) (h1 : S1x32x1024.ShapeCasts S32x1024)
    (h2 : S32x1024.ShapeCasts S32x1x1024) (h3 : S32x1x1024.Broadcasts S32x32x1024) (i j : Fin 32) (l : Fin 1024) :
    broadcastTo S32x32x1024 (shapeCast S32x1x1024 (shapeCast S32x1024 v h1) h2) h3 (ix3 i j l) = v (ix3 (0 : Fin 1) i l) := by
  refine (broadcastTo_apply _ h3 (ix3 i j l) (ix3 i (0 : Fin 1) l) fun a => ?_).trans ?_
  · match a with
    | ⟨0, _⟩ => rfl
    | ⟨1, _⟩ => rfl
    | ⟨2, _⟩ => rfl
  refine (shapeCast_apply _ h2 (ix3 i (0 : Fin 1) l) (ix2 i l) ?_).trans ?_
  · rw [Shape.rowMajor_val_two, Shape.rowMajor_val_three]
    show i.val * 1024 + l.val = (i.val * 1 + 0) * 1024 + l.val
    omega
  refine shapeCast_apply _ h1 (ix2 i l) (ix3 (0 : Fin 1) i l) ?_
  rw [Shape.rowMajor_val_two, Shape.rowMajor_val_three]
  show (0 * 32 + i.val) * 1024 + l.val = i.val * 1024 + l.val
  omega

/-- A plane spread along a new LEADING axis: entry `(i, j, l)` is the plane's `(j, l)`. -/
theorem spread_first {α : Type} (v : S1x32x1024.Idx → α) (h1 : S1x32x1024.ShapeCasts S32x1024)
    (h2 : S32x1024.ShapeCasts S1x32x1024) (h3 : S1x32x1024.Broadcasts S32x32x1024) (i j : Fin 32) (l : Fin 1024) :
    broadcastTo S32x32x1024 (shapeCast S1x32x1024 (shapeCast S32x1024 v h1) h2) h3 (ix3 i j l) = v (ix3 (0 : Fin 1) j l) := by
  refine (broadcastTo_apply _ h3 (ix3 i j l) (ix3 (0 : Fin 1) j l) fun a => ?_).trans ?_
  · match a with
    | ⟨0, _⟩ => rfl
    | ⟨1, _⟩ => rfl
    | ⟨2, _⟩ => rfl
  refine (shapeCast_apply _ h2 (ix3 (0 : Fin 1) j l) (ix2 j l) ?_).trans ?_
  · rw [Shape.rowMajor_val_two, Shape.rowMajor_val_three]
    show j.val * 1024 + l.val = (0 * 32 + j.val) * 1024 + l.val
    omega
  refine shapeCast_apply _ h1 (ix2 j l) (ix3 (0 : Fin 1) j l) ?_
  rw [Shape.rowMajor_val_two, Shape.rowMajor_val_three]
  show (0 * 32 + j.val) * 1024 + l.val = j.val * 1024 + l.val
  omega

/-- The mask "row number ≠ column number", as a float, spread across the lanes: `offDiag`. -/
theorem mask_spread (h0 : S32x32x1.Iotas .tc 32 [0]) (h1 : S32x32x1.Iotas .tc 32 [1]) (hlt : 1 < 32)
    (hb : S32x32x1.Broadcasts S32x32x1024) (i j : Fin 32) (l : Fin 1024) :
    broadcastTo S32x32x1024
        (sitofp (F := Ideal) .f32 (extui 32 (cmpi .ne (iota .tc S32x32x1 32 [0] h0) (iota .tc S32x32x1 32 [1] h1)) hlt)) hb (ix3 i j l)
      = offDiag i j := by
  refine (broadcastTo_apply _ hb (ix3 i j l) (ix3 i j (0 : Fin 1)) fun a => ?_).trans ?_
  · match a with
    | ⟨0, _⟩ => rfl
    | ⟨1, _⟩ => rfl
    | ⟨2, _⟩ => rfl
  show (((BitVec.setWidth 32 (IntOp.cmpi .ne (iota .tc S32x32x1 32 [0] h0 (ix3 i j (0 : Fin 1)))
      (iota .tc S32x32x1 32 [1] h1 (ix3 i j (0 : Fin 1))))).toInt : ℝ) : EReal) = _
  rw [iota_single_apply, iota_single_apply]
  exact mask_ne i j

/-! ## The two sums -/

/-- The sum over the leading axis of a `[32, 32, 1024]` array, at `(j, l)`. -/
theorem sum_leading3 (src : FVec Ideal S32x32x1024 .f32) (h : S32x32x1024.Reduces [0] S32x1024) (hφ : FKind.Formats .f32)
    (hacc : (0x00000000#32 : BitVec 32) = FKind.add.neutral .f32 hφ) (j : Fin 32) (l : Fin 1024) :
    multiReduction .add [0] S32x1024 src 0x00000000#32 h hφ hacc (ix2 j l) = ∑ i : Fin 32, src (ix3 i j l) := by
  refine (Ideal.multiReduction_add_single src _ h hφ hacc (ix2 j l)).trans ?_
  exact Finset.sum_congr rfl fun i _ => congrArg src (funext fun a => Fin.ext (by
    match a with
    | ⟨0, _⟩ => rfl
    | ⟨1, _⟩ => rfl
    | ⟨2, _⟩ => rfl))

/-- The sum over the leading axis of a `[32, 1024]` array, at lane `l`. -/
theorem sum_leading2 (src : FVec Ideal S32x1024 .f32) (h : S32x1024.Reduces [0] S1024) (hφ : FKind.Formats .f32)
    (hacc : (0x00000000#32 : BitVec 32) = FKind.add.neutral .f32 hφ) (l : Fin 1024) :
    multiReduction .add [0] S1024 src 0x00000000#32 h hφ hacc (ix1 l) = ∑ j : Fin 32, src (ix2 j l) := by
  refine (Ideal.multiReduction_add_single src _ h hφ hacc (ix1 l)).trans ?_
  exact Finset.sum_congr rfl fun j _ => congrArg src (funext fun a => Fin.ext (by
    match a with
    | ⟨0, _⟩ => rfl
    | ⟨1, _⟩ => rfl))

/-! ## The payload -/

/-- The body's stored value at lane `l` is the item loss of the lane's joints: the three planes read down the joints. -/
theorem pay_apply (v0 v2 v4 : FVec Ideal S1x32x1024 .f32) (l : Fin 1024) :
    k0_pay1 (F := Ideal) v0 v2 v4 (ix1 l)
      = itemLoss (fun i => v0 (ix3 (0 : Fin 1) i l)) (fun i => v2 (ix3 (0 : Fin 1) i l)) (fun i => v4 (ix3 (0 : Fin 1) i l)) := by
  unfold k0_pay1
  refine (sum_leading2 _ _ _ _ l).trans ?_
  unfold itemLoss
  refine Finset.sum_congr rfl fun j _ => ?_
  refine (sum_leading3 _ _ _ _ j l).trans ?_
  refine Finset.sum_congr rfl fun i _ => ?_
  simp only [mulf_apply, addf_apply, subf_apply, maximumf_apply, broadcast_apply, spread_second, spread_first]
  rw [mask_spread]
  rfl

end Cert.Separation.Kernel

end
-- ==== Proof.KernelArray.lean ====
/-
  From the kernel's blocks to its result.

  The region's input array is the argument transposed to `[3, 32, 16384]` (coordinate, joint, batch item); grid point `t`
  stages the lanes `1024 t … 1024 t + 1023` of all three planes and writes back the same lanes of the `[16384]` output. So
  lane `l` of point `t` holds the item loss of batch item `1024 t + l`, the sixteen blocks tile the output, and the output
  array ends as the per-item losses of the argument; the host lines after the region take their mean to the power 0.4.
-/
import proofs.«104757_j80307298501466_2_alg».proof.Proof.Gen.KernelIdeal.Frame
import proofs.«104757_j80307298501466_2_alg».proof.Proof.KernelPayload
import proofs.«104757_j80307298501466_2_alg».proof.Proof.SeparationSpec
import Idealize.ShloMosaic.Lib.Pipeline.Value
import Idealize.ShloMosaic.Lib.StableHlo.Run
import Idealize.ShloMosaic.Lib.Tactic

noncomputable section

namespace Cert.Separation.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Separation

variable (m : (ℓ : Loc nD τ sig) → Buf (Elt Ideal) ℓ) (ρ : Dev nD → PrngReg)

/-! ## The body's result at a lane, from the staged block -/

theorem hz1 : (![0] : Fin 1 → Nat) = fun _ => 0 := funext fun a => by fin_cases a; rfl

/-- Loading plane `o` of the staged block reads, at `(0, i, l)`, the block's `(o, i, l)`. -/
theorem ld_plane (x0 : Vec Ideal S3x32x1024 .f32) (o : Nat) (ho : o < 3)
    (inb : ∀ a, (![o, 0, 0] : Fin 3 → Nat) a + S1x32x1024.size a ≤ S3x32x1024.size a) (i : Fin 32) (l : Fin 1024) :
    View.ld x0 (Rect.unit (s := S3x32x1024) ![o, 0, 0] S1x32x1024.size inb) (ix3 (0 : Fin 1) i l)
      = x0 (ix3 (⟨o, ho⟩ : Fin 3) i l) := by
  show x0 _ = x0 _
  refine congrArg x0 (funext fun a => Fin.ext ?_)
  match a with
  | ⟨0, _⟩ => show o + 1 * 0 = o; omega
  | ⟨1, _⟩ => show 0 + 1 * i.val = i.val; omega
  | ⟨2, _⟩ => show 0 + 1 * l.val = l.val; omega

/-- What the body leaves in the output's staging buffer, at lane `l`: the item loss of the block's lane. -/
theorem out_at (x0 : Vec Ideal S3x32x1024 .f32) (y : S1024.Idx) (l : Fin 1024) (hl : (y 0).val = l.val) :
    out0_1 (F := Ideal) x0 y
      = itemLoss (fun i => x0 (ix3 (0 : Fin 3) i l)) (fun i => x0 (ix3 (1 : Fin 3) i l)) (fun i => x0 (ix3 (2 : Fin 3) i l)) := by
  obtain rfl : y = ix1 l := funext fun a => Fin.ext (by match a with | ⟨0, _⟩ => exact hl)
  unfold out0_1
  rw [View.canon_unit_zero hz1]
  refine (pay_apply _ _ _ l).trans ?_
  have e0 : (fun i => View.ld x0 r0_0 (ix3 (0 : Fin 1) i l)) = fun i => x0 (ix3 (0 : Fin 3) i l) :=
    funext fun i => ld_plane x0 0 (by decide) _ i l
  have e1 : (fun i => View.ld x0 r0_1 (ix3 (0 : Fin 1) i l)) = fun i => x0 (ix3 (1 : Fin 3) i l) :=
    funext fun i => ld_plane x0 1 (by decide) _ i l
  have e2 : (fun i => View.ld x0 r0_2 (ix3 (0 : Fin 1) i l)) = fun i => x0 (ix3 (2 : Fin 3) i l) :=
    funext fun i => ld_plane x0 2 (by decide) _ i l
  rw [e0, e1, e2]

/-! ## The region's input array and its blocks -/

/-- The region finds the argument transposed: coordinate first, batch item last. -/
theorem entry_eq (c : Dev nD) :
    (V m c main_v0 : S3x32x16384.Idx → Elt Ideal .f32)
      = transpose S3x32x16384 [2, 1, 0] (m ((c : Thread nD τ).loc main_arg0)) transposes_S16384x32x3_S3x32x16384_2_1_0 := by
  show StableHlo.after hostOps0 (fun b => m (c, b)) (Proc.devRef .tc main_v0) = _
  after_results

theorem entry_apply (c : Dev nD) (ch : Fin 3) (i : Fin 32) (b : Fin 16384) :
    (V m c main_v0 : S3x32x16384.Idx → Elt Ideal .f32) (ix3 ch i b)
      = (m ((c : Thread nD τ).loc main_arg0) : S16384x32x3.Idx → Elt Ideal .f32) (ix3 b i ch) := by
  rw [entry_eq]
  exact transpose_apply _ _ _ (ix3 ch i b) (ix3 b i ch) (fun a => match a with
    | ⟨0, _⟩ => rfl
    | ⟨1, _⟩ => rfl
    | ⟨2, _⟩ => rfl)

/-- The printed index maps over the grid: the input's block moves along the lanes only, with the output's. -/
theorem idx_facts : ∀ t : Fin cfg0.N, win0_0.index t (0 : Fin 3) = 0 ∧ win0_0.index t (1 : Fin 3) = 0
    ∧ win0_0.index t (2 : Fin 3) = t.val ∧ win0_1.index t (0 : Fin 1) = t.val :=
  (by decide +kernel : ∀ t : Fin grid0.N, _)

/-- The staged block at point `t` holds lanes `1024 t …` of the region's input array. -/
theorem iblk_apply (c : Dev nD) (t : Fin cfg0.N) (ch : Fin 3) (i : Fin 32) (l : Fin 1024) (b : Fin 16384)
    (hb : b.val = t.val * 1024 + l.val) :
    (iblk m c 0 t : Vec Ideal S3x32x1024 .f32) (ix3 ch i l) = (V m c main_v0 : S3x32x16384.Idx → Elt Ideal .f32) (ix3 ch i b) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 3 + 1 * ch.val = ch.val; rw [e0]; omega
  | ⟨1, _⟩ => show win0_0.index t (1 : Fin 3) * 32 + 1 * i.val = i.val; rw [e1]; omega
  | ⟨2, _⟩ => show win0_0.index t (2 : Fin 3) * 1024 + 1 * l.val = b.val; rw [e2, hb]; omega

/-! ## What each point writes back, and the whole output array -/

/-- Point `t` writes back block `t` of the per-item losses of the argument. -/
theorem flushed_eq (c : Dev nD) (t : Fin cfg0.N) :
    (dats m 0 c).flushed 1 t
      = ((cfg0.win 1).blk t).view.read (Elt Ideal) (perItem (m ((c : Thread nD τ).loc main_arg0))) := by
  show (cfg0.win 1).cut (grid0.coords t) ((dats m 0 c).after 1 t) = _
  rw [after0_1]
  obtain ⟨-, -, -, e3⟩ := idx_facts t
  have ht : t.val < 16 := lt_of_lt_of_eq t.isLt N_0
  funext y
  have hlt : (y 0).val < 1024 := Nat.lt_of_lt_of_le (y 0).isLt ((cfg0.win 1).xsize_le (grid0.coords t) 0)
  refine (out_at (iblk m c 0 t) ((cfg0.win 1).xinj (grid0.coords t) y) ⟨(y 0).val, hlt⟩ rfl).trans ?_
  have hemb : ((cfg0.win 1).blk t).view.emb y = ix1 (⟨t.val * 1024 + (y 0).val, by omega⟩ : Fin 16384) :=
    funext fun a => Fin.ext (by
      match a with
      | ⟨0, _⟩ => show win0_1.index t (0 : Fin 1) * 1024 + 1 * (y 0).val = t.val * 1024 + (y 0).val; rw [e3]; omega)
  show _ = perItem (m ((c : Thread nD τ).loc main_arg0)) (((cfg0.win 1).blk t).view.emb y)
  rw [hemb]
  show itemLoss _ _ _ = itemLoss _ _ _
  congr 1 <;> funext i <;>
    rw [iblk_apply m c t _ i ⟨(y 0).val, hlt⟩ (⟨t.val * 1024 + (y 0).val, by omega⟩ : Fin 16384) rfl, entry_apply]

/-- The sixteen blocks tile the output array. -/
theorem covered (i : S16384.Idx) :
    ∃ t : Fin cfg0.N, (cfg0.win 1).flush t = true ∧ i ∈ ((cfg0.win 1).blk t).view.set := by
  have hi : (i 0).val < 16384 := (i 0).isLt
  have hN : cfg0.N = 16 := N_0
  let t : Fin cfg0.N := ⟨(i 0).val / 1024, by rw [hN]; omega⟩
  obtain ⟨-, -, -, e3⟩ := idx_facts t
  refine ⟨t, flush0_1 t, ?_⟩
  show i ∈ ((View.whole main_v1).slice (win0_1.rect t)).set
  rw [View.set_slice_whole, Rect.mem_set_unit]
  intro a
  match a with
  | ⟨0, _⟩ =>
    show win0_1.index t (0 : Fin 1) * 1024 ≤ (i 0).val ∧ (i 0).val < win0_1.index t (0 : Fin 1) * 1024 + 1024
    rw [e3]
    show (i 0).val / 1024 * 1024 ≤ (i 0).val ∧ (i 0).val < (i 0).val / 1024 * 1024 + 1024
    omega

/-- The output array after the region: the per-item losses of the argument. -/
theorem final (c : Dev nD) : (dats m 0 c).arrAt 1 cfg0.N = perItem (m ((c : Thread nD τ).loc main_arg0)) :=
  (dats m 0 c).arrAt_eq_of_cover 1 (perItem (m ((c : Thread nD τ).loc main_arg0))) (fun t _ => flushed_eq m c t) covered

/-! ## The host lines after the region, and the run -/

/-- The program's result is the mean of the output array to the power 0.4. -/
theorem tail_eq (c : Dev nD) :
    Pipeline.afterTail₀ cfgs (dats m) 0 (V0 m) [hostOps1] c main_v4 = meanPow ((dats m 0 c).arrAt 1 cfg0.N) := by
  unfold Pipeline.afterTail₀
  show StableHlo.after hostOps1 _ (Proc.devRef .tc main_v4) = _
  after_results
  rw [Pipeline.withArrays_arr spec0 launch0.win.arr_inj c _ _ 1]
  rfl

/-- Every weakly fair execution of the kernel's program ends with its result at the loss of the argument, the argument
    unchanged. -/
theorem run : θ_run (defs (F := Ideal)) (onTc (τ := τ) (main (F := Ideal))) ⟨m, fun _ => 0, ρ⟩ fun r => ∀ c : Dev nD,
      r.2.mem ((c : Thread nD τ).loc main_v4) = loss (m ((c : Thread nD τ).loc main_arg0))
      ∧ r.2.mem ((c : Thread nD τ).loc main_arg0) = m ((c : Thread nD τ).loc main_arg0) :=
  (θ_run defs _ _).mono (fun r h c =>
    ⟨((h c).2 main_v4 (Pipeline.mem_restRefs_of main_v4 (by decide) (by decide))).trans
        ((tail_eq m c).trans (congrArg meanPow (final m c))),
      ((h c).2 main_arg0 (Pipeline.mem_restRefs_of main_arg0 (by decide) (by decide))).trans (W_main_arg0 m (dats m) c)⟩)
    (run_main m ρ)

end Cert.Separation.Kernel

end
-- ==== Proof.LibSumLastTwo.lean ====
/-
  A host sum over the last two axes of a rank-3 array, read at an index.

  On the extended reals the host's sum over axes 1 and 2 of an `[n0, n1, n2]` array is, at item `b`, the initial value plus
  the double sum over the two reduced coordinates: the source indices that drop to `b` are exactly those with first
  coordinate `b`, and they are in bijection with the pairs of the other two coordinates. Stated for any extents.
-/
import Idealize.ShloMosaic.PureOps.Ideal
import Idealize.ShloMosaic.Lib.ValueIdx

noncomputable section

namespace Cert.Lib.SumLastTwo

open Idealize.ShloMosaic Idealize.ShloMosaic.ValueIdx

/-- The sum a `stablehlo.reduce` takes over the last two axes of a rank-3 array, read at the item `b`: the initial value
    plus the double sum over the two reduced coordinates. The indices that drop to `b` are exactly those whose first
    coordinate is `b`, and they correspond to the pairs of the other two coordinates. -/
theorem hostReduceAdd_last_two {n0 n1 n2 : Nat}
    (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ p : Fin n1, ∑ q : Fin n2, x (ix3 b p q) := by
  unfold Ideal.hostReduceAdd
  have key : ∀ i : (⟨3, ![n0, n1, n2]⟩ : Shape).Idx, h.drop i = ix1 b → i 0 = b := by
    intro i e
    have e0 := congrFun e 0
    exact Fin.ext (congrArg Fin.val e0)
  have back : ∀ (p : Fin n1) (q : Fin n2), h.drop (ix3 b p q) = ix1 b := by
    intro p q
    funext d
    obtain rfl : d = 0 := Subsingleton.elim _ _
    exact Fin.ext rfl
  refine congrArg (init + ·) ?_
  rw [← Fintype.sum_prod_type']
  refine Finset.sum_nbij' (fun i => (i 1, i 2)) (fun pq => ix3 b pq.1 pq.2) ?_ ?_ ?_ ?_ ?_
  · intro i _; exact Finset.mem_univ _
  · intro pq _; exact Finset.mem_filter.mpr ⟨Finset.mem_univ _, back pq.1 pq.2⟩
  · intro i hi
    have hb := key i (Finset.mem_filter.mp hi).2
    subst hb
    exact (eq_ix3 i).symm
  · intro pq _; rfl
  · intro i hi
    have hb := key i (Finset.mem_filter.mp hi).2
    subst hb
    exact congrArg x (eq_ix3 i)

end Cert.Lib.SumLastTwo

end
-- ==== Proof.ReferenceSide.lean ====
/-
  The reference program's value is the separation loss of its argument.

  Three steps. At a pair `(i, j)` of an item the program's masked penalty is the specification's `pairPenalty`: the
  broadcasts read the two joints' coordinates, the sum over the coordinate axis adds the three squares in the order of
  the coordinates, the two hinges use the same words for 0, 1/4 and 4, and the mask "one minus (row = column)" is
  `offDiag`. The sum over the two joint axes is, at each item, the double sum over the two coordinates; swapping the two
  sums gives the specification's order (second joint outermost). The last three operations — the sum over the batch,
  the division by 16384 and the power 0.4 — are the specification's `meanPow` literally.
-/
import proofs.«104757_j80307298501466_2_alg».proof.Proof.Gen.ReferenceIdeal.Read
import proofs.«104757_j80307298501466_2_alg».proof.Proof.SeparationSpec
import proofs.«104757_j80307298501466_2_alg».proof.Proof.LibSumLastTwo
import Idealize.ShloMosaic.Lib.ValueIdx

noncomputable section

namespace Cert.Separation.Reference

open Idealize.ShloMosaic Idealize.ShloMosaic.ValueIdx Cert.ReferenceIdeal Cert.ReferenceIdeal.Gen Cert.ReferenceIdeal.Read

/-! ## The penalty at a pair -/

/-- The squared distance the reference computes at the pair `(i, j)` of item `b`: the three squared coordinate
    differences, added in the order of the coordinates (`(dx² + dy²) + dz²`, the grouping of `sqDist`). -/
theorem sqDist_at (x0 : (⟨S16384x32x3, .f32⟩ : BufTy).Contents (Elt Ideal)) (b : Fin 16384) (i j : Fin 32) :
    val_main_v6 (F := Ideal) x0 (ix3 b i j)
      = Cert.Separation.sqDist (fun i => x0 (ix3 b i 0)) (fun i => x0 (ix3 b i 1)) (fun i => x0 (ix3 b i 2)) i j := by
  -- the first broadcast chain reads joint `i`, the second joint `j`, both at coordinate `k`
  have eL : ∀ k : Fin 3, idx_main_v0 (idx_main_v2 (idx_main_v6 (ix3 b i j) k)) = ix3 b i k := fun k =>
    funext fun a => Fin.ext (by match a with | ⟨0, _⟩ => rfl | ⟨1, _⟩ => rfl | ⟨2, _⟩ => rfl)
  have eR : ∀ k : Fin 3, idx_main_v1 (idx_main_v3 (idx_main_v6 (ix3 b i j) k)) = ix3 b j k := fun k =>
    funext fun a => Fin.ext (by match a with | ⟨0, _⟩ => rfl | ⟨1, _⟩ => rfl | ⟨2, _⟩ => rfl)
  rw [val_main_v6_apply, Fin.sum_univ_three]
  simp only [val_main_v5_apply, val_main_v4_apply, val_main_v2_apply, val_main_v3_apply, val_main_v0_apply,
    val_main_v1_apply, val_main_cst_apply, eL, eR, Ideal.ofBits_def, Ideal.subf_def, Ideal.mulf_def,
    Ideal.ofBits_zero_f32, zero_add]
  rfl

/-- The reference's masked penalty at the pair `(i, j)` of item `b` is the specification's: the two-sided hinge of the
    squared distance, times one off the diagonal and zero on it. -/
theorem penalty_at (x0 : (⟨S16384x32x3, .f32⟩ : BufTy).Contents (Elt Ideal)) (b : Fin 16384) (i j : Fin 32) :
    val_main_v26 (F := Ideal) x0 (ix3 b i j)
      = Cert.Separation.pairPenalty (fun i => x0 (ix3 b i 0)) (fun i => x0 (ix3 b i 1)) (fun i => x0 (ix3 b i 2)) i j := by
  -- the mask's two broadcasts read the `[32, 32]` array at `(i, j)`
  have eM : idx_main_v24 (idx_main_v25 (ix3 b i j)) = ix2 i j :=
    funext fun a => Fin.ext (by match a with | ⟨0, _⟩ => rfl | ⟨1, _⟩ => rfl)
  simp only [val_main_v26_apply, val_main_v15_apply, val_main_v10_apply, val_main_v14_apply, val_main_v9_apply,
    val_main_v13_apply, val_main_v8_apply, val_main_v12_apply, val_main_v7_apply, val_main_v11_apply,
    val_main_cst_0_apply, val_main_cst_1_apply, val_main_cst_2_apply, val_main_cst_3_apply,
    val_main_v25_apply, val_main_v24_apply, val_main_v23_apply, val_main_v22_apply, val_main_v21_apply,
    val_main_v20_apply, val_main_v19_apply, val_main_v18_apply, val_main_v16_apply, val_main_v17_apply,
    val_main_c_apply, val_main_cst_4_apply, eM, sqDist_at,
    Ideal.ofBits_def, Ideal.addf_def, Ideal.subf_def, Ideal.mulf_def, Ideal.maximumf_def]
  unfold Cert.Separation.pairPenalty Cert.Separation.hinge
  exact congrArg (_ * ·) (Cert.Separation.mask_one_sub_eq i j)

/-! ## The per-item losses -/

/-- The sum over the two joint axes is the specification's per-item loss: at each item the double sum of the penalties,
    with the two sums swapped to put the second joint outermost. -/
theorem perItem_eq (x0 : (⟨S16384x32x3, .f32⟩ : BufTy).Contents (Elt Ideal)) :
    val_main_v27 (F := Ideal) x0 = Cert.Separation.perItem x0 := by
  funext c
  obtain ⟨b, rfl⟩ : ∃ b, c = ix1 b := ⟨c 0, eq_ix1 c⟩
  unfold val_main_v27
  simp only [Host.reduceAdd, Ideal.hostReduceAdd_def]
  refine (Cert.Lib.SumLastTwo.hostReduceAdd_last_two _ _ _ b).trans ?_
  rw [val_main_cst_5_apply, Ideal.ofBits_def, Ideal.ofBits_zero_f32, zero_add, Finset.sum_comm]
  unfold Cert.Separation.perItem Cert.Separation.itemLoss
  exact Finset.sum_congr rfl fun q _ => Finset.sum_congr rfl fun p _ => penalty_at x0 b p q

/-! ## The whole program -/

/-- The last three operations (the sum over the batch from zero, the division by 16384, the power 0.4) are `meanPow`. -/
theorem tail_eq (x0 : (⟨S16384x32x3, .f32⟩ : BufTy).Contents (Elt Ideal)) :
    val_main_v30 (F := Ideal) x0 = Cert.Separation.meanPow (val_main_v27 (F := Ideal) x0) := rfl

/-- THE REFERENCE SIDE: the reference program's result is the separation loss of its argument. -/
theorem reference_eq (x0 : (⟨S16384x32x3, .f32⟩ : BufTy).Contents (Elt Ideal)) :
    val_main_v30 (F := Ideal) x0 = Cert.Separation.loss x0 :=
  (tail_eq x0).trans (congrArg Cert.Separation.meanPow (perItem_eq x0))

end Cert.Separation.Reference

end
-- ==== Proof.lean ====
/-
  The separation loss: the kernel and the reference compute one function on the extended reals.

  Both programs take a `[16384, 32, 3]` array of joint positions and return
  `(mean over the items of Σ_{i ≠ j} (max(0, 1/4 - d_ij) + max(0, d_ij - 4))) ^ 0.4`, where `d_ij` is the squared distance of
  joints `i` and `j` of an item (`Cert.Separation.loss`). The kernel works on the argument transposed, sixteen blocks of 1024
  items across the lanes, and sums the penalties one joint axis at a time; the reference sums the squares over the coordinate
  axis and the penalties over both joint axes at once. The two differ only in the order and grouping of finite sums, which on
  the extended reals needs no finiteness, and in the spelling of the off-diagonal mask. The kernel's run is read off its frame
  run (`Cert.Separation.Kernel.run`), the reference's off its run (`Cert.Separation.Reference.reference_eq`); the idealization
  rewrote nothing, so `preserves` is trivial, and the three frames are the programs' runs with the result dropped.
-/
import proofs.«104757_j80307298501466_2_alg».proof.Defs
import proofs.«104757_j80307298501466_2_alg».proof.Proof.Gen.Kernel
import proofs.«104757_j80307298501466_2_alg».proof.Proof.Gen.Kernel.Frame
import proofs.«104757_j80307298501466_2_alg».proof.Proof.Gen.KernelIdeal
import proofs.«104757_j80307298501466_2_alg».proof.Proof.Gen.KernelIdeal.Frame
import proofs.«104757_j80307298501466_2_alg».proof.Proof.Gen.ReferenceIdeal
import proofs.«104757_j80307298501466_2_alg».proof.Proof.Gen.ReferenceIdeal.Run
import proofs.«104757_j80307298501466_2_alg».proof.Proof.Gen.ReferenceIdeal.Read
import proofs.«104757_j80307298501466_2_alg».proof.Proof.Gen.Pre_finite_inputs
import proofs.«104757_j80307298501466_2_alg».proof.Proof.KernelArray
import proofs.«104757_j80307298501466_2_alg».proof.Proof.ReferenceSide

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument both programs end at the separation loss of that argument. -/
theorem algebraic : Cert.algebraic_KernelIdeal_ReferenceIdeal := by
  intro m ρ m' ρ' _ hagree
  refine ⟨fun c => Cert.Separation.loss (m ((c : Thread Cert.KernelIdeal.nD Cert.KernelIdeal.τ).loc Cert.KernelIdeal.main_arg0)),
    Cert.Separation.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Separation.Reference.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
